-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096x64 : Shape := ⟨2, ![4096, 64]⟩
abbrev S64x4096 : Shape := ⟨2, ![64, 4096]⟩
abbrev S1000000 : Shape := ⟨1, ![1000000]⟩
abbrev S2x1000000 : Shape := ⟨2, ![2, 1000000]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096x64 : S_.BroadcastsInDim S4096x64 (![] : Fin 0 → Fin S4096x64.rank)
  reducesTo_S4096x64_S_d0_1 : S4096x64.ReducesTo [0, 1] S_
  bcast_S_S64x4096 : S_.BroadcastsInDim S64x4096 (![] : Fin 0 → Fin S64x4096.rank)
  reducesTo_S64x4096_S_d0_1 : S64x4096.ReducesTo [0, 1] S_
  bcast_S_S1000000 : S_.BroadcastsInDim S1000000 (![] : Fin 0 → Fin S1000000.rank)
  reducesTo_S1000000_S_d0 : S1000000.ReducesTo [0] S_

variable [Facts]

def fn_part1 {F : FTy → Type} [FloatOps F] (main_arg4 : FVec F S1000000 .f32) (main_v13 : IVec S_ 1) (main_v16 : IVec S64x4096 1) : IVec S_ 1 :=
  let main_c_5 : IVec S_ 1 := constantI S_ 1 1#1
  let main_v17 : IVec S_ 1 := (fun x v => Host.reduce IntOp.andi x v reducesTo_S64x4096_S_d0_1 h_S_) main_v16 main_c_5
  let main_v18 : IVec S_ 1 := andi main_v13 main_v17
  let main_v19 : FVec F S1000000 .f32 := Host.absf main_arg4
  let main_cst_6 : FVec F S_ .f32 := constant S_ .f32 0x7F800000#32
  let main_v20 : FVec F S1000000 .f32 := broadcastInDim S1000000 ![] bcast_S_S1000000 main_cst_6
  let main_v21 : IVec S1000000 1 := cmpf .olt main_v19 main_v20
  let main_c_7 : IVec S_ 1 := constantI S_ 1 1#1
  let main_v22 : IVec S_ 1 := (fun x v => Host.reduce IntOp.andi x v reducesTo_S1000000_S_d0 h_S_) main_v21 main_c_7
  let main_v23 : IVec S_ 1 := andi main_v18 main_v22
  main_v23

def fn {F : FTy → Type} [FloatOps F] (main_arg0 : FVec F S4x2048x4096 .f32) (main_arg1 : FVec F S4096x4096 .f32) (main_arg2 : FVec F S4096x64 .f32) (main_arg3 : FVec F S64x4096 .f32) (main_arg4 : FVec F S1000000 .f32) (main_arg5 : IVec S2x1000000 32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x64 .f32 := Host.absf main_arg2
  let main_cst_2 : FVec F S_ .f32 := constant S_ .f32 0x7F800000#32
  let main_v10 : FVec F S4096x64 .f32 := broadcastInDim S4096x64 ![] bcast_S_S4096x64 main_cst_2
  let main_v11 : IVec S4096x64 1 := cmpf .olt main_v9 main_v10
  let main_c_3 : IVec S_ 1 := constantI S_ 1 1#1
  let main_v12 : IVec S_ 1 := (fun x v => Host.reduce IntOp.andi x v reducesTo_S4096x64_S_d0_1 h_S_) main_v11 main_c_3
  let main_v13 : IVec S_ 1 := andi main_v8 main_v12
  let main_v14 : FVec F S64x4096 .f32 := Host.absf main_arg3
  let main_cst_4 : FVec F S_ .f32 := constant S_ .f32 0x7F800000#32
  let main_v15 : FVec F S64x4096 .f32 := broadcastInDim S64x4096 ![] bcast_S_S64x4096 main_cst_4
  let main_v16 : IVec S64x4096 1 := cmpf .olt main_v14 main_v15
  fn_part1 (F := F) main_arg4 main_v13 main_v16
-- ==== Kernel.lean ====
abbrev S4x2048x4096 : Shape := ⟨3, ![4, 2048, 4096]⟩
abbrev S4096x4096 : Shape := ⟨2, ![4096, 4096]⟩
abbrev S4096x64 : Shape := ⟨2, ![4096, 64]⟩
abbrev S64x4096 : Shape := ⟨2, ![64, 4096]⟩
abbrev S1000000 : Shape := ⟨1, ![1000000]⟩
abbrev S2x1000000 : Shape := ⟨2, ![2, 1000000]⟩
abbrev S1x1000000 : Shape := ⟨2, ![1, 1000000]⟩
abbrev S_ : Shape := ⟨0, ![]⟩
abbrev S1000000x1 : Shape := ⟨2, ![1000000, 1]⟩
abbrev S1000000x2 : Shape := ⟨2, ![1000000, 2]⟩
abbrev S256x4096 : Shape := ⟨2, ![256, 4096]⟩
abbrev S256x64 : Shape := ⟨2, ![256, 64]⟩
abbrev S8192x4096 : Shape := ⟨2, ![8192, 4096]⟩
abbrev S2048x4096 : Shape := ⟨2, ![2048, 4096]⟩
abbrev S2048x256 : Shape := ⟨2, ![2048, 256]⟩

abbrev nBuf : Space → Nat
  | .hbm => 36
  | .vmem => 13
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096x64, .f32⟩
  | .hbm, ⟨3, _⟩ => ⟨S64x4096, .f32⟩
  | .hbm, ⟨4, _⟩ => ⟨S1000000, .f32⟩
  | .hbm, ⟨5, _⟩ => ⟨S2x1000000, .i32⟩
  | .hbm, ⟨6, _⟩ => ⟨S1x1000000, .i32⟩
  | .hbm, ⟨7, _⟩ => ⟨S1000000, .i32⟩
  | .hbm, ⟨8, _⟩ => ⟨S1x1000000, .i32⟩
  | .hbm, ⟨9, _⟩ => ⟨S1000000, .i32⟩
  | .hbm, ⟨10, _⟩ => ⟨S_, .f32⟩
  | .hbm, ⟨11, _⟩ => ⟨S1000000, .f32⟩
  | .hbm, ⟨12, _⟩ => ⟨S1000000, .f32⟩
  | .hbm, ⟨13, _⟩ => ⟨S_, .i32⟩
  | .hbm, ⟨14, _⟩ => ⟨S1000000, .i32⟩
  | .hbm, ⟨15, _⟩ => ⟨S1000000, .i1⟩
  | .hbm, ⟨16, _⟩ => ⟨S_, .i32⟩
  | .hbm, ⟨17, _⟩ => ⟨S1000000, .i32⟩
  | .hbm, ⟨18, _⟩ => ⟨S1000000, .i32⟩
  | .hbm, ⟨19, _⟩ => ⟨S1000000, .i32⟩
  | .hbm, ⟨20, _⟩ => ⟨S_, .i32⟩
  | .hbm, ⟨21, _⟩ => ⟨S1000000, .i32⟩
  | .hbm, ⟨22, _⟩ => ⟨S1000000, .i1⟩
  | .hbm, ⟨23, _⟩ => ⟨S_, .i32⟩
  | .hbm, ⟨24, _⟩ => ⟨S1000000, .i32⟩
  | .hbm, ⟨25, _⟩ => ⟨S1000000, .i32⟩
  | .hbm, ⟨26, _⟩ => ⟨S1000000, .i32⟩
  | .hbm, ⟨27, _⟩ => ⟨S1000000x1, .i32⟩
  | .hbm, ⟨28, _⟩ => ⟨S1000000x1, .i32⟩
  | .hbm, ⟨29, _⟩ => ⟨S1000000x2, .i32⟩
  | .hbm, ⟨30, _⟩ => ⟨S4096x4096, .f32⟩
  | .hbm, ⟨31, _⟩ => ⟨S4096x4096, .bf16⟩
  | .hbm, ⟨32, _⟩ => ⟨S8192x4096, .f32⟩
  | .hbm, ⟨33, _⟩ => ⟨S8192x4096, .bf16⟩
  | .hbm, ⟨34, _⟩ => ⟨S8192x4096, .f32⟩
  | .hbm, ⟨35, _⟩ => ⟨S4x2048x4096, .f32⟩
  | .local _ .vmem, ⟨0, _⟩ => ⟨S256x4096, .f32⟩
  | .local _ .vmem, ⟨1, _⟩ => ⟨S256x4096, .f32⟩
  | .local _ .vmem, ⟨2, _⟩ => ⟨S256x64, .f32⟩
  | .local _ .vmem, ⟨3, _⟩ => ⟨S256x64, .f32⟩
  | .local _ .vmem, ⟨4, _⟩ => ⟨S64x4096, .f32⟩
  | .local _ .vmem, ⟨5, _⟩ => ⟨S256x4096, .bf16⟩
  | .local _ .vmem, ⟨6, _⟩ => ⟨S256x4096, .bf16⟩
  | .local _ .vmem, ⟨7, _⟩ => ⟨S2048x4096, .bf16⟩
  | .local _ .vmem, ⟨8, _⟩ => ⟨S2048x4096, .bf16⟩
  | .local _ .vmem, ⟨9, _⟩ => ⟨S256x4096, .bf16⟩
  | .local _ .vmem, ⟨10, _⟩ => ⟨S256x4096, .bf16⟩
  | .local _ .vmem, ⟨11, _⟩ => ⟨S2048x256, .f32⟩
  | .local _ .vmem, ⟨12, _⟩ => ⟨S2048x256, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![4, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S2048x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S256x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x1_S1000000x1_S1000000x2_d1 : Shape.Concatenates [S1000000x1, S1000000x1] S1000000x2 1
  inb_S256x64_S256x64_0_0 : ∀ a, (![0, 0] : Fin 2 → Nat) a + S256x64.size a ≤ S256x64.size a
  h_S256x64 : 0 < S256x64.numel
  bitsLt_bf16_f32 : FTy.bits .bf16 < FTy.bits .f32
  inb_S64x4096_S64x4096_0_0 : ∀ a, (![0, 0] : Fin 2 → Nat) a + S64x4096.size a ≤ S64x4096.size a
  h_S64x4096 : 0 < S64x4096.numel
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  packedbf16_S256x4096_S256x4096_0_0 : (Rect.unit (s := S256x4096) ![0, 0] S256x4096.size inb_S256x4096_S256x4096_0_0).PackedRows (EltTy.packing .bf16)
  shapeCasts_S4x2048x4096_S8192x4096 : S4x2048x4096.ShapeCasts S8192x4096
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S2048x256_S2048x256_0_0 : ∀ a, (![0, 0] : Fin 2 → Nat) a + S2048x256.size a ≤ S2048x256.size a
  h_S2048x256 : 0 < S2048x256.numel
  shapeCasts_S8192x4096_S4x2048x4096 : S8192x4096.ShapeCasts S4x2048x4096
  scatter_S4096x4096_S1000000x2_S1000000_n_01_01_1_wf : ScatterDims.WF S4096x4096 S1000000x2 S1000000 [] [0, 1] [0, 1] 1
  dot_S256x64_S64x4096_S256x4096_1_0_0_1_n_n_wf : DotDims.WF S256x64 S64x4096 S256x4096 [1] [0] [0] [1] [] []
  dot_S2048x4096_S256x4096_S2048x256_1_1_0_0_n_n_wf : DotDims.WF S2048x4096 S256x4096 S2048x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S4096x64.size a
  hwx0_1 : ∀ i : grid0.Coords, EltTy.bits .f32 = 32 ∨ (Rect.block (s := S4096x64) S256x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x4096.size a ≤ S64x4096.size a
  hwx0_2 : ∀ i : grid0.Coords, EltTy.bits .f32 = 32 ∨ (Rect.block (s := S64x4096) S64x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S4096x4096.size a
  hwx0_3 : ∀ i : grid0.Coords, EltTy.bits .bf16 = 32 ∨ (Rect.block (s := S4096x4096) S256x4096.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x4096.size a ≤ S8192x4096.size a
  hwx1_0 : ∀ i : grid1.Coords, EltTy.bits .bf16 = 32 ∨ (Rect.block (s := S8192x4096) S2048x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x4096.size a ≤ S4096x4096.size a
  hwx1_1 : ∀ i : grid1.Coords, EltTy.bits .bf16 = 32 ∨ (Rect.block (s := S4096x4096) S256x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x256.size a ≤ S8192x4096.size a
  hwx1_2 : ∀ i : grid1.Coords, EltTy.bits .f32 = 32 ∨ (Rect.block (s := S8192x4096) S2048x256.size (cc1_transform_2 i) (hinb1_2 i)).WholeWords (EltTy.packing .f32)

variable [Facts₀]

def scatter_S4096x4096_S1000000x2_S1000000_n_01_01_1 : ScatterDims S4096x4096 S1000000x2 S1000000 where
  updateWindowDims := []
  insertedWindowDims := [0, 1]
  scatterDimsToOperandDims := [0, 1]
  indexVectorDim := 1
  wf := scatter_S4096x4096_S1000000x2_S1000000_n_01_01_1_wf
def dot_S256x64_S64x4096_S256x4096_1_0_0_1_n_n : DotDims S256x64 S64x4096 S256x4096 where
  lhsContracting := [1]
  rhsContracting := [0]
  lhsNonContracting := [0]
  rhsNonContracting := [1]
  lhsBatch := []
  rhsBatch := []
  wf := dot_S256x64_S64x4096_S256x4096_1_0_0_1_n_n_wf
def dot_S2048x4096_S256x4096_S2048x256_1_1_0_0_n_n : DotDims S2048x4096 S256x4096 S2048x256 where
  lhsContracting := [1]
  rhsContracting := [1]
  lhsNonContracting := [0]
  rhsNonContracting := [0]
  lhsBatch := []
  rhsBatch := []
  wf := dot_S2048x4096_S256x4096_S2048x256_1_1_0_0_n_n_wf

abbrev win0_0 : Pipeline.Window sig grid0 :=
  Pipeline.Window.ofSpec (Memref.whole main_v19) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v22) S2048x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S256x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S2048x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096x64 : Shape := ⟨2, ![4096, 64]⟩
abbrev S64x4096 : Shape := ⟨2, ![64, 4096]⟩
abbrev S1000000 : Shape := ⟨1, ![1000000]⟩
abbrev S2x1000000 : Shape := ⟨2, ![2, 1000000]⟩
abbrev S4x2048x64 : Shape := ⟨3, ![4, 2048, 64]⟩
abbrev S_ : Shape := ⟨0, ![]⟩
abbrev S1x1000000 : Shape := ⟨2, ![1, 1000000]⟩
abbrev S1000000x1 : Shape := ⟨2, ![1000000, 1]⟩
abbrev S1000000x2 : Shape := ⟨2, ![1000000, 2]⟩

abbrev nBuf : Space → Nat
  | .hbm => 39
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096x64, .f32⟩
  | .hbm, ⟨3, _⟩ => ⟨S64x4096, .f32⟩
  | .hbm, ⟨4, _⟩ => ⟨S1000000, .f32⟩
  | .hbm, ⟨5, _⟩ => ⟨S2x1000000, .i32⟩
  | .hbm, ⟨6, _⟩ => ⟨S4x2048x4096, .f32⟩
  | .hbm, ⟨7, _⟩ => ⟨S4x2048x64, .f32⟩
  | .hbm, ⟨8, _⟩ => ⟨S4x2048x4096, .f32⟩
  | .hbm, ⟨9, _⟩ => ⟨S_, .f32⟩
  | .hbm, ⟨10, _⟩ => ⟨S4096x4096, .f32⟩
  | .hbm, ⟨11, _⟩ => ⟨S1x1000000, .i32⟩
  | .hbm, ⟨12, _⟩ => ⟨S1000000, .i32⟩
  | .hbm, ⟨13, _⟩ => ⟨S1x1000000, .i32⟩
  | .hbm, ⟨14, _⟩ => ⟨S1000000, .i32⟩
  | .hbm, ⟨15, _⟩ => ⟨S_, .i32⟩
  | .hbm, ⟨16, _⟩ => ⟨S1000000, .i32⟩
  | .hbm, ⟨17, _⟩ => ⟨S1000000, .i1⟩
  | .hbm, ⟨18, _⟩ => ⟨S_, .i32⟩
  | .hbm, ⟨19, _⟩ => ⟨S1000000, .i32⟩
  | .hbm, ⟨20, _⟩ => ⟨S1000000, .i32⟩
  | .hbm, ⟨21, _⟩ => ⟨S1000000, .i32⟩
  | .hbm, ⟨22, _⟩ => ⟨S_, .i32⟩
  | .hbm, ⟨23, _⟩ => ⟨S1000000, .i32⟩
  | .hbm, ⟨24, _⟩ => ⟨S1000000, .i1⟩
  | .hbm, ⟨25, _⟩ => ⟨S_, .i32⟩
  | .hbm, ⟨26, _⟩ => ⟨S1000000, .i32⟩
  | .hbm, ⟨27, _⟩ => ⟨S1000000, .i32⟩
  | .hbm, ⟨28, _⟩ => ⟨S1000000, .i32⟩
  | .hbm, ⟨29, _⟩ => ⟨S1000000x1, .i32⟩
  | .hbm, ⟨30, _⟩ => ⟨S1000000x1, .i32⟩
  | .hbm, ⟨31, _⟩ => ⟨S1000000x2, .i32⟩
  | .hbm, ⟨32, _⟩ => ⟨S4096x4096, .f32⟩
  | .hbm, ⟨33, _⟩ => ⟨S4x2048x4096, .f32⟩
  | .hbm, ⟨34, _⟩ => ⟨S4x2048x4096, .f32⟩
  | .hbm, ⟨35, _⟩ => ⟨S_, .f32⟩
  | .hbm, ⟨36, _⟩ => ⟨S4x2048x4096, .f32⟩
  | .hbm, ⟨37, _⟩ => ⟨S4x2048x4096, .f32⟩
  | .hbm, ⟨38, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x1_S1000000x1_S1000000x2_d1 : Shape.Concatenates [S1000000x1, S1000000x1] S1000000x2 1
  bcast_S_S4x2048x4096 : S_.BroadcastsInDim S4x2048x4096 (![] : Fin 0 → Fin S4x2048x4096.rank)
  dot_S4x2048x4096_S4096x4096_S4x2048x4096_2_1_01_0_n_n_wf : DotDims.WF S4x2048x4096 S4096x4096 S4x2048x4096 [2] [1] [0, 1] [0] [] []
  dot_S4x2048x4096_S64x4096_S4x2048x64_2_1_01_0_n_n_wf : DotDims.WF S4x2048x4096 S64x4096 S4x2048x64 [2] [1] [0, 1] [0] [] []
  dot_S4x2048x64_S4096x64_S4x2048x4096_2_1_01_0_n_n_wf : DotDims.WF S4x2048x64 S4096x64 S4x2048x4096 [2] [1] [0, 1] [0] [] []
  scatter_S4096x4096_S1000000x2_S1000000_n_01_01_1_wf : ScatterDims.WF S4096x4096 S1000000x2 S1000000 [] [0, 1] [0, 1] 1

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S64x4096_S4x2048x64_2_1_01_0_n_n : DotDims S4x2048x4096 S64x4096 S4x2048x64 where
  lhsContracting := [2]
  rhsContracting := [1]
  lhsNonContracting := [0, 1]
  rhsNonContracting := [0]
  lhsBatch := []
  rhsBatch := []
  wf := dot_S4x2048x4096_S64x4096_S4x2048x64_2_1_01_0_n_n_wf
def dot_S4x2048x64_S4096x64_S4x2048x4096_2_1_01_0_n_n : DotDims S4x2048x64 S4096x64 S4x2048x4096 where
  lhsContracting := [2]
  rhsContracting := [1]
  lhsNonContracting := [0, 1]
  rhsNonContracting := [0]
  lhsBatch := []
  rhsBatch := []
  wf := dot_S4x2048x64_S4096x64_S4x2048x4096_2_1_01_0_n_n_wf
def scatter_S4096x4096_S1000000x2_S1000000_n_01_01_1 : ScatterDims S4096x4096 S1000000x2 S1000000 where
  updateWindowDims := []
  insertedWindowDims := [0, 1]
  scatterDimsToOperandDims := [0, 1]
  indexVectorDim := 1
  wf := scatter_S4096x4096_S1000000x2_S1000000_n_01_01_1_wf

class Facts : Prop extends Facts₀ where

variable [Facts]
-- ==== Proof.KernelRun.lean ====
/-
  The idealized kernel's whole run with its result named.

  The program is five stretches in order: host operations, the weight-combining region, host operations, the matmul
  region, one closing reshape. The contents of every buffer at each boundary are a fold from the launch memory
  (`W0 … W5`). Here the run is stated with the result buffer read off the last boundary: after the run the result
  holds `W5 m ρ c` at its reference, and each argument array holds what it held at launch.
-/
import proofs.«105094_j83159156785478_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result buffer ends at the last boundary's contents
    and the six argument arrays end as launched. -/
theorem run : θ_run defs (onTc (τ := τ) (main (F := F))) ⟨m, fun _ => 0, ρ⟩ (fun r => ∀ c : Dev nD,
      r.2.mem ((c.tc : Thread nD τ).loc main_v24) = W5 m ρ c (Proc.devRef .tc main_v24)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v24 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

end Cert.KernelIdeal.KRun

end
-- ==== Proof.KernelBody.lean ====
/-
  The two kernel bodies as sums, element by element, at the ideal values.

  The weight-combining body stores, at row `p` and column `q` of its block,
      w(p, q) + 1 · Σ_r a(p, r) · b(r, q)        (r over the 64 rank coordinates),
  the product of its two small operands added to its block of the weight (the roundings to a narrower format are the
  identity at the ideal values, and the constant it scales by is the real number one). The matmul body stores
      Σ_k x(p, k) · w(q, k)                      (k over the 4096 input features),
  the rows of its first block contracted with the rows of its second.
-/
import proofs.«105094_j83159156785478_2_alg».proof.Proof.Gen.KernelIdeal.Skeleton
import Idealize.ShloMosaic.Lib.ValueIdx
import Idealize.ShloMosaic.Lib.Pipeline.Value
import Idealize.ShloMosaic.PureOps.Ideal.Laws
import Idealize.ShloMosaic.PureOps.IdealRules

noncomputable section

namespace Cert.KernelIdeal.KBody

open Cert.KernelIdeal Cert.KernelIdeal.Gen Idealize.ShloMosaic Idealize.ShloMosaic.ValueIdx

/-- The f32 word of 1.0 denotes the real number one. -/
theorem one_f32 : Ideal.ofBits .f32 0x3F800000#32 = 1 := IdealRules.sign_bit.ideal_onePat .f32

/-! ## The rank-64 product of the weight-combining body: operand coordinates -/

theorem lhsW_0 (i : S256x4096.Idx) (q : dot_S256x64_S64x4096_S256x4096_1_0_0_1_n_n.contr.Idx) :
    (dot_S256x64_S64x4096_S256x4096_1_0_0_1_n_n.lhsIdx i q 0).val = (i 0).val := by
  unfold DotDims.lhsIdx
  rw [dif_neg (show ¬(0 : Fin S256x64.rank) ∈ dot_S256x64_S64x4096_S256x4096_1_0_0_1_n_n.lhsBatch by decide), dif_pos (show (0 : Fin S256x64.rank) ∈ dot_S256x64_S64x4096_S256x4096_1_0_0_1_n_n.lhsNonContracting by decide)]
  rfl
theorem lhsW_1 (i : S256x4096.Idx) (q : dot_S256x64_S64x4096_S256x4096_1_0_0_1_n_n.contr.Idx) :
    (dot_S256x64_S64x4096_S256x4096_1_0_0_1_n_n.lhsIdx i q 1).val = (q ⟨0, by decide⟩).val :=
  dot_S256x64_S64x4096_S256x4096_1_0_0_1_n_n.lhsIdx_val_of_single rfl i q
theorem rhsW_0 (i : S256x4096.Idx) (q : dot_S256x64_S64x4096_S256x4096_1_0_0_1_n_n.contr.Idx) :
    (dot_S256x64_S64x4096_S256x4096_1_0_0_1_n_n.rhsIdx i q 0).val = (q ⟨0, by decide⟩).val :=
  dot_S256x64_S64x4096_S256x4096_1_0_0_1_n_n.rhsIdx_val_of_single rfl i q
theorem rhsW_1 (i : S256x4096.Idx) (q : dot_S256x64_S64x4096_S256x4096_1_0_0_1_n_n.contr.Idx) :
    (dot_S256x64_S64x4096_S256x4096_1_0_0_1_n_n.rhsIdx i q 1).val = (i 1).val := by
  unfold DotDims.rhsIdx
  rw [dif_neg (show ¬(1 : Fin S64x4096.rank) ∈ dot_S256x64_S64x4096_S256x4096_1_0_0_1_n_n.rhsBatch by decide), dif_pos (show (1 : Fin S64x4096.rank) ∈ dot_S256x64_S64x4096_S256x4096_1_0_0_1_n_n.rhsNonContracting by decide)]
  rfl

/-- The product of the two small operands into a zero accumulator, at row `p` and column `q`, is the sum over the
    64 rank coordinates. -/
theorem lowrank_apply (xa : FVec Ideal S256x64 .bf16) (xb : FVec Ideal S64x4096 .bf16) (p : Fin 256) (q : Fin 4096) :
    FloatOps.matmul (F := Ideal) dot_S256x64_S64x4096_S256x4096_1_0_0_1_n_n none xa xb (constant S256x4096 .f32 0x00000000#32) (ix2 p q)
      = ∑ r : Fin 64, xa (ix2 p r) * xb (ix2 r q) := by
  rw [Ideal.matmul_constant_zero_apply, ← Equiv.sum_comp (ValueIdx.contrEquiv1 dot_S256x64_S64x4096_S256x4096_1_0_0_1_n_n 64 rfl rfl).symm]
  refine Finset.sum_congr rfl fun k _ => ?_
  have hk := ValueIdx.contrEquiv1_symm_val dot_S256x64_S64x4096_S256x4096_1_0_0_1_n_n 64 rfl rfl k
  have el : dot_S256x64_S64x4096_S256x4096_1_0_0_1_n_n.lhsIdx (ix2 p q) ((ValueIdx.contrEquiv1 dot_S256x64_S64x4096_S256x4096_1_0_0_1_n_n 64 rfl rfl).symm k) = ix2 p k := funext fun a => Fin.ext (by
    match a with
    | ⟨0, _⟩ => exact lhsW_0 _ _
    | ⟨1, _⟩ => exact (lhsW_1 _ _).trans hk)
  have er : dot_S256x64_S64x4096_S256x4096_1_0_0_1_n_n.rhsIdx (ix2 p q) ((ValueIdx.contrEquiv1 dot_S256x64_S64x4096_S256x4096_1_0_0_1_n_n 64 rfl rfl).symm k) = ix2 k q := funext fun a => Fin.ext (by
    match a with
    | ⟨0, _⟩ => exact (rhsW_0 _ _).trans hk
    | ⟨1, _⟩ => exact rhsW_1 _ _)
  rw [el, er]

/-- WHAT THE WEIGHT-COMBINING BODY STORES at row `p`, column `q`: its weight block there plus one times the
    rank-64 product. -/
theorem combine_apply (xa : FVec Ideal S256x64 .f32) (xb : FVec Ideal S64x4096 .f32) (xw : FVec Ideal S256x4096 .f32)
    (p : Fin 256) (q : Fin 4096) :
    k0_pay1 (F := Ideal) xa xb xw (ix2 p q) = xw (ix2 p q) + (1 : EReal) * ∑ r : Fin 64, xa (ix2 p r) * xb (ix2 r q) := by
  unfold k0_pay1
  rw [shapeCast_self]
  show xw (ix2 p q) + Ideal.ofBits .f32 0x3F800000#32 * (FloatOps.matmul (F := Ideal) dot_S256x64_S64x4096_S256x4096_1_0_0_1_n_n none
      (truncf .bf16 xa bitsLt_bf16_f32) (truncf .bf16 xb bitsLt_bf16_f32) (constant S256x4096 .f32 0x00000000#32) (ix2 p q)) = _
  rw [lowrank_apply, one_f32]
  rfl

/-! ## The main product: operand coordinates -/

theorem lhsX_0 (i : S2048x256.Idx) (q : dot_S2048x4096_S256x4096_S2048x256_1_1_0_0_n_n.contr.Idx) :
    (dot_S2048x4096_S256x4096_S2048x256_1_1_0_0_n_n.lhsIdx i q 0).val = (i 0).val := by
  unfold DotDims.lhsIdx
  rw [dif_neg (show ¬(0 : Fin S2048x4096.rank) ∈ dot_S2048x4096_S256x4096_S2048x256_1_1_0_0_n_n.lhsBatch by decide), dif_pos (show (0 : Fin S2048x4096.rank) ∈ dot_S2048x4096_S256x4096_S2048x256_1_1_0_0_n_n.lhsNonContracting by decide)]
  rfl
theorem lhsX_1 (i : S2048x256.Idx) (q : dot_S2048x4096_S256x4096_S2048x256_1_1_0_0_n_n.contr.Idx) :
    (dot_S2048x4096_S256x4096_S2048x256_1_1_0_0_n_n.lhsIdx i q 1).val = (q ⟨0, by decide⟩).val :=
  dot_S2048x4096_S256x4096_S2048x256_1_1_0_0_n_n.lhsIdx_val_of_single rfl i q
theorem rhsX_0 (i : S2048x256.Idx) (q : dot_S2048x4096_S256x4096_S2048x256_1_1_0_0_n_n.contr.Idx) :
    (dot_S2048x4096_S256x4096_S2048x256_1_1_0_0_n_n.rhsIdx i q 0).val = (i 1).val := by
  unfold DotDims.rhsIdx
  rw [dif_neg (show ¬(0 : Fin S256x4096.rank) ∈ dot_S2048x4096_S256x4096_S2048x256_1_1_0_0_n_n.rhsBatch by decide), dif_pos (show (0 : Fin S256x4096.rank) ∈ dot_S2048x4096_S256x4096_S2048x256_1_1_0_0_n_n.rhsNonContracting by decide)]
  rfl
theorem rhsX_1 (i : S2048x256.Idx) (q : dot_S2048x4096_S256x4096_S2048x256_1_1_0_0_n_n.contr.Idx) :
    (dot_S2048x4096_S256x4096_S2048x256_1_1_0_0_n_n.rhsIdx i q 1).val = (q ⟨0, by decide⟩).val :=
  dot_S2048x4096_S256x4096_S2048x256_1_1_0_0_n_n.rhsIdx_val_of_single rfl i q

/-- WHAT THE MATMUL BODY STORES at row `p`, column `q`: row `p` of its first block contracted with row `q` of its
    second, over the 4096 input features. -/
theorem product_apply (x0 : FVec Ideal S2048x4096 .bf16) (x1 : FVec Ideal S256x4096 .bf16) (p : Fin 2048) (q : Fin 256) :
    k1_pay1 (F := Ideal) x0 x1 (ix2 p q) = ∑ k : Fin 4096, x0 (ix2 p k) * x1 (ix2 q k) := by
  unfold k1_pay1
  rw [shapeCast_self, shapeCast_self]
  show FloatOps.matmul (F := Ideal) dot_S2048x4096_S256x4096_S2048x256_1_1_0_0_n_n none x0 x1 (constant S2048x256 .f32 0x00000000#32) (ix2 p q) = _
  rw [Ideal.matmul_constant_zero_apply, ← Equiv.sum_comp (ValueIdx.contrEquiv1 dot_S2048x4096_S256x4096_S2048x256_1_1_0_0_n_n 4096 rfl rfl).symm]
  refine Finset.sum_congr rfl fun k _ => ?_
  have hk := ValueIdx.contrEquiv1_symm_val dot_S2048x4096_S256x4096_S2048x256_1_1_0_0_n_n 4096 rfl rfl k
  have el : dot_S2048x4096_S256x4096_S2048x256_1_1_0_0_n_n.lhsIdx (ix2 p q) ((ValueIdx.contrEquiv1 dot_S2048x4096_S256x4096_S2048x256_1_1_0_0_n_n 4096 rfl rfl).symm k) = ix2 p k := funext fun a => Fin.ext (by
    match a with
    | ⟨0, _⟩ => exact lhsX_0 _ _
    | ⟨1, _⟩ => exact (lhsX_1 _ _).trans hk)
  have er : dot_S2048x4096_S256x4096_S2048x256_1_1_0_0_n_n.rhsIdx (ix2 p q) ((ValueIdx.contrEquiv1 dot_S2048x4096_S256x4096_S2048x256_1_1_0_0_n_n 4096 rfl rfl).symm k) = ix2 q k := funext fun a => Fin.ext (by
    match a with
    | ⟨0, _⟩ => exact rhsX_0 _ _
    | ⟨1, _⟩ => exact (rhsX_1 _ _).trans hk)
  rw [el, er]

end Cert.KernelIdeal.KBody

end
-- ==== Proof.KernelBlocks.lean ====
/-
  From blocks to whole arrays, for each of the two regions, at the ideal values and for ANY contents `V` the region
  is entered with.

  The weight-combining region has 16 points; point `t` reads rows 256·t … 256·t + 255 of the scattered weight and of
  the tall operand, the whole wide operand, and writes the same rows of its result. So after the region the result
  array is, at row `o` and column `d`,
      wp(o, d) + 1 · Σ_r a(o, r) · b(r, d).
  The matmul region has 4 × 16 points; point (i, j) reads rows 2048·i … of the activations and rows 256·j … of the
  combined weight, and writes the block at rows 2048·i …, columns 256·j … of its result. So after the region the
  result array is, at row `n` and column `o`,
      Σ_k x(n, k) · w(o, k).
  Each is proved by showing that what a point writes back is its block of that one whole-array function, and that the
  blocks cover the array (the block holding an index is found by dividing its coordinates by the block sizes).
-/
import proofs.«105094_j83159156785478_2_alg».proof.Proof.Gen.KernelIdeal.Frame
import proofs.«105094_j83159156785478_2_alg».proof.Proof.KernelBody
import Idealize.ShloMosaic.Lib.Pipeline.Value

set_option maxRecDepth 16384

noncomputable section

namespace Cert.KernelIdeal.KBlocks

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-! ## The weight-combining region -/

/-- The combined weight: the scattered weight plus one times the product of the tall and the wide operand. -/
def combined (wp : S4096x4096.Idx → EReal) (a : S4096x64.Idx → EReal) (b : S64x4096.Idx → EReal) :
    S4096x4096.Idx → EReal :=
  fun i => wp i + (1 : EReal) * ∑ r : Fin 64, a (ix2 (i 0) r) * b (ix2 r (i 1))

/-- The index maps over the 16 points: the three row-blocked windows move together down the rows, nothing moves along
    the columns, and the wide operand's one block stays put. -/
theorem maps0 : ∀ t : Fin cfg0.N, win0_0.index t (0 : Fin 2) = win0_3.index t (0 : Fin 2)
    ∧ win0_0.index t (1 : Fin 2) = 0
    ∧ win0_1.index t (0 : Fin 2) = win0_3.index t (0 : Fin 2)
    ∧ win0_1.index t (1 : Fin 2) = 0
    ∧ win0_2.index t (0 : Fin 2) = 0
    ∧ win0_2.index t (1 : Fin 2) = 0
    ∧ win0_3.index t (1 : Fin 2) = 0
    ∧ win0_3.index t (0 : Fin 2) ≤ 15 :=
  (by decide +kernel : ∀ t : Fin grid0.N, _)

/-- Every one of the 16 row blocks is some point's. -/
theorem onto0 : ∀ q0 : Fin 16, ∃ t : Fin cfg0.N, win0_3.index t = ![q0.val, 0] :=
  (by decide +kernel : ∀ q0 : Fin 16, ∃ t : Fin grid0.N, win0_3.index t = ![q0.val, 0])

/-- WHAT POINT `t` WRITES BACK is its block of the combined weight. -/
theorem flushed0 (c : Dev nD) (t : Fin cfg0.N) :
    (dat0 V c).flushed 3 t
      = ((cfg0.win 3).blk t).view.read (Elt Ideal) (combined (V c main_v19) (V c main_arg2) (V c main_arg3)) := by
  show (cfg0.win 3).cut (grid0.coords t) ((dat0 V c).after 3 t) = _
  rw [after0_3]
  unfold out0_3
  rw [View.canon_unit_zero zero_offsets]
  simp only [View.ld_unit_zero (S := S256x64) zero_offsets, View.ld_unit_zero (S := S64x4096) zero_offsets,
    View.ld_unit_zero (S := S256x4096) zero_offsets]
  obtain ⟨e0, e1, e2, e3, e4, e5, e6, e7⟩ := maps0 t
  funext j
  obtain ⟨p, q, rfl⟩ : ∃ (p : Fin 256) (q : Fin 4096), j = ix2 p q := ⟨j 0, j 1, eq_ix2 j⟩
  show k0_pay1 (iblk0 V c 1 t) (iblk0 V c 2 t) (iblk0 V c 0 t) (ix2 p q)
    = combined (V c main_v19) (V c main_arg2) (V c main_arg3) (((cfg0.win 3).blk t).view.emb (ix2 p q))
  refine (KBody.combine_apply _ _ _ p q).trans ?_
  unfold combined
  have hw : ((cfg0.win 0).blk t).view.emb (ix2 p q) = ((cfg0.win 3).blk t).view.emb (ix2 p q) := by
    funext a; apply Fin.ext
    match a with
    | ⟨0, _⟩ => show win0_0.index t (0 : Fin 2) * 256 + 1 * p.val = win0_3.index t (0 : Fin 2) * 256 + 1 * p.val; omega
    | ⟨1, _⟩ => show win0_0.index t (1 : Fin 2) * 4096 + 1 * q.val = win0_3.index t (1 : Fin 2) * 4096 + 1 * q.val; omega
  have ha : ∀ r : Fin 64, ((cfg0.win 1).blk t).view.emb (ix2 p r)
      = ix2 ((((cfg0.win 3).blk t).view.emb (ix2 p q)) 0) r := fun r => by
    funext a; apply Fin.ext
    match a with
    | ⟨0, _⟩ => show win0_1.index t (0 : Fin 2) * 256 + 1 * p.val = win0_3.index t (0 : Fin 2) * 256 + 1 * p.val; omega
    | ⟨1, _⟩ => show win0_1.index t (1 : Fin 2) * 64 + 1 * r.val = r.val; omega
  have hb : ∀ r : Fin 64, ((cfg0.win 2).blk t).view.emb (ix2 r q)
      = ix2 r ((((cfg0.win 3).blk t).view.emb (ix2 p q)) 1) := fun r => by
    funext a; apply Fin.ext
    match a with
    | ⟨0, _⟩ => show win0_2.index t (0 : Fin 2) * 64 + 1 * r.val = r.val; omega
    | ⟨1, _⟩ => show win0_2.index t (1 : Fin 2) * 4096 + 1 * q.val = win0_3.index t (1 : Fin 2) * 4096 + 1 * q.val; omega
  have key : ∀ (wp : S4096x4096.Idx → EReal) (a : S4096x64.Idx → EReal) (b : S64x4096.Idx → EReal),
      wp (((cfg0.win 0).blk t).view.emb (ix2 p q))
          + (1 : EReal) * ∑ r : Fin 64, a (((cfg0.win 1).blk t).view.emb (ix2 p r)) * b (((cfg0.win 2).blk t).view.emb (ix2 r q))
        = wp (((cfg0.win 3).blk t).view.emb (ix2 p q))
          + (1 : EReal) * ∑ r : Fin 64, a (ix2 ((((cfg0.win 3).blk t).view.emb (ix2 p q)) 0) r)
              * b (ix2 r ((((cfg0.win 3).blk t).view.emb (ix2 p q)) 1)) := fun wp a b => by
    rw [hw]
    simp only [ha, hb]
    rfl
  exact key (V c main_v19) (V c main_arg2) (V c main_arg3)

/-- An index of the result is in point `t`'s block iff each coordinate is in the block's range on its axis. -/
theorem mem_blk0 (t : Fin cfg0.N) (i : S4096x4096.Idx) :
    i ∈ ((cfg0.win 3).blk t).view.set ↔ ∀ a : Fin 2, win0_3.index t a * S256x4096.size a ≤ (i a).val ∧ (i a).val < win0_3.index t a * S256x4096.size a + S256x4096.size a := by
  show i ∈ ((View.whole main_v20).slice (win0_3.rect t)).set ↔ _
  rw [View.set_slice_whole, Rect.mem_set_unit]
  exact Iff.rfl

/-- Every index of the result is in some point's block: the point whose row block is the row divided by 256. -/
theorem cover0 (i : S4096x4096.Idx) :
    ∃ t : Fin cfg0.N, (cfg0.win 3).flush t = true ∧ i ∈ ((cfg0.win 3).blk t).view.set := by
  have hi0 : (i 0).val < 4096 := (i 0).isLt
  have hi1 : (i 1).val < 4096 := (i 1).isLt
  obtain ⟨t, ht⟩ := onto0 ⟨(i 0).val / 256, by omega⟩
  have q0 : win0_3.index t (0 : Fin 2) = (i 0).val / 256 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 4096 ≤ (i 1).val ∧ (i 1).val < win0_3.index t (1 : Fin 2) * 4096 + 4096; omega

/-- THE RESULT ARRAY OF THE FIRST REGION is the combined weight of the contents the region was entered with. -/
theorem final0 (c : Dev nD) :
    (dat0 V c).arrAt 3 cfg0.N = combined (V c main_v19) (V c main_arg2) (V c main_arg3) :=
  (dat0 V c).arrAt_eq_of_cover 3 (combined (V c main_v19) (V c main_arg2) (V c main_arg3))
    (fun t _ => flushed0 V c t) cover0

/-! ## The matmul region -/

/-- Rows of the activations against rows of the weight. -/
def rowsDot (x : S8192x4096.Idx → EReal) (w : S4096x4096.Idx → EReal) : S8192x4096.Idx → EReal :=
  fun i => ∑ k : Fin 4096, x (ix2 (i 0) k) * w (ix2 (i 1) k)

/-- The index maps over the 64 points: the activations follow the result's row block, the weight its column block,
    and neither moves along the contracted axis. -/
theorem maps1 : ∀ t : Fin cfg1.N, win1_0.index t (0 : Fin 2) = win1_2.index t (0 : Fin 2)
    ∧ win1_0.index t (1 : Fin 2) = 0
    ∧ win1_1.index t (0 : Fin 2) = win1_2.index t (1 : Fin 2)
    ∧ win1_1.index t (1 : Fin 2) = 0
    ∧ win1_2.index t (0 : Fin 2) ≤ 3
    ∧ win1_2.index t (1 : Fin 2) ≤ 15 :=
  (by decide +kernel : ∀ t : Fin grid1.N, _)

/-- Every one of the 4 × 16 blocks is some point's. -/
theorem onto1 : ∀ (q0 : Fin 4) (q1 : Fin 16), ∃ t : Fin cfg1.N, win1_2.index t = ![q0.val, q1.val] :=
  (by decide +kernel : ∀ (q0 : Fin 4) (q1 : Fin 16), ∃ t : Fin grid1.N, win1_2.index t = ![q0.val, q1.val])

/-- WHAT POINT `t` WRITES BACK is its block of the rows-against-rows product. -/
theorem flushed1 (c : Dev nD) (t : Fin cfg1.N) :
    (dat1 V c).flushed 2 t
      = ((cfg1.win 2).blk t).view.read (Elt Ideal) (rowsDot (V c main_v22) (V c main_v20)) := by
  show (cfg1.win 2).cut (grid1.coords t) ((dat1 V c).after 2 t) = _
  rw [after1_2]
  unfold out1_2
  rw [View.canon_unit_zero zero_offsets]
  simp only [View.ld_unit_zero (S := S2048x4096) zero_offsets, View.ld_unit_zero (S := S256x4096) zero_offsets]
  obtain ⟨e0, e1, e2, e3, e4, e5⟩ := maps1 t
  funext j
  obtain ⟨p, q, rfl⟩ : ∃ (p : Fin 2048) (q : Fin 256), j = ix2 p q := ⟨j 0, j 1, eq_ix2 j⟩
  show k1_pay1 (iblk1 V c 0 t) (iblk1 V c 1 t) (ix2 p q)
    = rowsDot (V c main_v22) (V c main_v20) (((cfg1.win 2).blk t).view.emb (ix2 p q))
  refine (KBody.product_apply _ _ p q).trans ?_
  unfold rowsDot
  have hx : ∀ k : Fin 4096, ((cfg1.win 0).blk t).view.emb (ix2 p k)
      = ix2 ((((cfg1.win 2).blk t).view.emb (ix2 p q)) 0) k := fun k => by
    funext a; apply Fin.ext
    match a with
    | ⟨0, _⟩ => show win1_0.index t (0 : Fin 2) * 2048 + 1 * p.val = win1_2.index t (0 : Fin 2) * 2048 + 1 * p.val; omega
    | ⟨1, _⟩ => show win1_0.index t (1 : Fin 2) * 4096 + 1 * k.val = k.val; omega
  have hw : ∀ k : Fin 4096, ((cfg1.win 1).blk t).view.emb (ix2 q k)
      = ix2 ((((cfg1.win 2).blk t).view.emb (ix2 p q)) 1) k := fun k => by
    funext a; apply Fin.ext
    match a with
    | ⟨0, _⟩ => show win1_1.index t (0 : Fin 2) * 256 + 1 * q.val = win1_2.index t (1 : Fin 2) * 256 + 1 * q.val; omega
    | ⟨1, _⟩ => show win1_1.index t (1 : Fin 2) * 4096 + 1 * k.val = k.val; omega
  have key : ∀ (x : S8192x4096.Idx → EReal) (w : S4096x4096.Idx → EReal),
      ∑ k : Fin 4096, x (((cfg1.win 0).blk t).view.emb (ix2 p k)) * w (((cfg1.win 1).blk t).view.emb (ix2 q k))
        = ∑ k : Fin 4096, x (ix2 ((((cfg1.win 2).blk t).view.emb (ix2 p q)) 0) k)
            * w (ix2 ((((cfg1.win 2).blk t).view.emb (ix2 p q)) 1) k) := fun x w => by
    simp only [hx, hw]
    rfl
  exact key (V c main_v22) (V c main_v20)

/-- An index of the result is in point `t`'s block iff each coordinate is in the block's range on its axis. -/
theorem mem_blk1 (t : Fin cfg1.N) (i : S8192x4096.Idx) :
    i ∈ ((cfg1.win 2).blk t).view.set ↔ ∀ a : Fin 2, win1_2.index t a * S2048x256.size a ≤ (i a).val ∧ (i a).val < win1_2.index t a * S2048x256.size a + S2048x256.size a := by
  show i ∈ ((View.whole main_v23).slice (win1_2.rect t)).set ↔ _
  rw [View.set_slice_whole, Rect.mem_set_unit]
  exact Iff.rfl

/-- Every index of the result is in some point's block: row divided by 2048, column divided by 256. -/
theorem cover1 (i : S8192x4096.Idx) :
    ∃ t : Fin cfg1.N, (cfg1.win 2).flush t = true ∧ i ∈ ((cfg1.win 2).blk t).view.set := by
  have hi0 : (i 0).val < 8192 := (i 0).isLt
  have hi1 : (i 1).val < 4096 := (i 1).isLt
  obtain ⟨t, ht⟩ := onto1 ⟨(i 0).val / 2048, by omega⟩ ⟨(i 1).val / 256, by omega⟩
  have q0 : win1_2.index t (0 : Fin 2) = (i 0).val / 2048 := congrFun ht 0
  have q1 : win1_2.index t (1 : Fin 2) = (i 1).val / 256 := congrFun ht 1
  refine ⟨t, flush1_2 t, ?_⟩
  rw [mem_blk1]
  intro a
  match a with
  | ⟨0, _⟩ => show win1_2.index t (0 : Fin 2) * 2048 ≤ (i 0).val ∧ (i 0).val < win1_2.index t (0 : Fin 2) * 2048 + 2048; omega
  | ⟨1, _⟩ => show win1_2.index t (1 : Fin 2) * 256 ≤ (i 1).val ∧ (i 1).val < win1_2.index t (1 : Fin 2) * 256 + 256; omega

/-- THE RESULT ARRAY OF THE SECOND REGION is the rows-against-rows product of the contents the region was entered
    with. -/
theorem final1 (c : Dev nD) :
    (dat1 V c).arrAt 2 cfg1.N = rowsDot (V c main_v22) (V c main_v20) :=
  (dat1 V c).arrAt_eq_of_cover 2 (rowsDot (V c main_v22) (V c main_v20))
    (fun t _ => flushed1 V c t) cover1

end Cert.KernelIdeal.KBlocks

end
-- ==== Proof.Spec.lean ====
/-
  The result as one function of the inputs, in the two arrangements the two programs compute, and the law that joins
  them.

  Write x for the activations [4, 2048, 4096], w for the dense weight [4096, 4096], a [4096, 64] and b [64, 4096] for
  the low-rank pair, v for the million sparse values, and J(o, d) for the set of sparse entries whose index pair lands
  on row o, column d of the weight. With S(o, d) = Σ_{j ∈ J(o, d)} v(j):

    fused      (p, s, o) = Σ_d x(p, s, d) · ( (w(o, d) + Σ_{j ∈ J(o, d)} 1 · v(j)) + 1 · Σ_r a(o, r) · b(r, d) )
    separate   (p, s, o) = Σ_d x(p, s, d) · w(o, d)
                            + 1 · ( Σ_r (Σ_d x(p, s, d) · b(r, d)) · a(o, r) + Σ_d x(p, s, d) · (0 + S(o, d)) )

  The two are equal when every input element is a real number: then every term is real, and over the reals the
  equality is distributivity of the product over the three summands, followed by exchanging the sums over d and r.
  On the extended reals distributivity can fail at infinities, which is why finiteness is asked.
-/
import Idealize.ShloMosaic.PureOps.Ideal.Laws
import Idealize.ShloMosaic.Lib.ValueIdx
import Idealize.ShloMosaic.PureOps.IdealRules

noncomputable section

namespace Cert.Spec

open Idealize.ShloMosaic Idealize.ShloMosaic.ValueIdx

/-- The f32 word of 1.0 denotes the real number one. -/
theorem one_f32 : Ideal.ofBits .f32 0x3F800000#32 = 1 := IdealRules.sign_bit.ideal_onePat .f32

/-- A finite sum of reals, read in the extended reals, is the real sum. -/
theorem coe_sum {ι : Type*} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The law over the reals: distribute, then exchange the two sums of the low-rank term. -/
theorem real_law {K R ι : Type*} [Fintype K] [Fintype R] (J : K → Finset ι)
    (x w : K → ℝ) (a : R → ℝ) (b : R → K → ℝ) (v : ι → ℝ) :
    (∑ k, x k * ((w k + ∑ j ∈ J k, v j) + ∑ r, a r * b r k))
      = (∑ k, x k * w k) + ((∑ r, (∑ k, x k * b r k) * a r) + ∑ k, x k * ∑ j ∈ J k, v j) := by
  simp only [mul_add, Finset.sum_add_distrib, Finset.mul_sum, Finset.sum_mul]
  rw [add_assoc, add_comm (∑ k, ∑ j ∈ J k, x k * v j)]
  congr 2
  rw [Finset.sum_comm]
  refine Finset.sum_congr rfl fun r _ => Finset.sum_congr rfl fun k _ => by ring

/-- The law on the extended reals, for real-valued data: one output element's two arrangements agree. -/
theorem fused_eq {K R ι : Type*} [Fintype K] [Fintype R] (J : K → Finset ι)
    (x w : K → EReal) (a : R → EReal) (b : R → K → EReal) (v : ι → EReal)
    (hx : ∀ k, ∃ r : ℝ, x k = r) (hw : ∀ k, ∃ r : ℝ, w k = r) (ha : ∀ k, ∃ r : ℝ, a k = r)
    (hb : ∀ r k, ∃ q : ℝ, b r k = q) (hv : ∀ j, ∃ r : ℝ, v j = r) :
    (∑ k, x k * ((w k + ∑ j ∈ J k, (1 : EReal) * v j) + (1 : EReal) * ∑ r, a r * b r k))
      = (∑ k, x k * w k) + (1 : EReal) * ((∑ r, (∑ k, x k * b r k) * a r) + ∑ k, x k * ((0 : EReal) + ∑ j ∈ J k, v j)) := by
  choose x' hx' using hx
  choose w' hw' using hw
  choose a' ha' using ha
  choose b' hb' using hb
  choose v' hv' using hv
  simp only [hx', hw', ha', hb', hv', one_mul, zero_add, ← EReal.coe_mul, ← EReal.coe_add, coe_sum]
  exact congrArg _ (real_law J x' w' a' b' v')

/-! ## A scatter-add read at an element -/

/-- The update entries whose result index is operand element `i`. -/
def landing {s si su : Shape} (d : ScatterDims s si su) {w : Nat} (idx : IVec si w) (i : s.Idx) : Finset su.Idx :=
  Finset.univ.filter fun j => d.resultIdx? j idx = some i

/-- At the ideal values an accumulating scatter, at an element, is the operand there plus the sum of the updates
    landing there. -/
theorem hostScatterAdd_apply {s si su : Shape} (d : ScatterDims s si su) {w : Nat} (x : s.Idx → EReal)
    (idx : IVec si w) (upd : su.Idx → EReal) (i : s.Idx) :
    Ideal.hostScatterAdd d x idx upd i = x i + ∑ j ∈ landing d idx i, upd j := rfl

/-! ## The shapes and the two arrangements -/

abbrev SX : Shape := ⟨3, ![4, 2048, 4096]⟩
abbrev SW : Shape := ⟨2, ![4096, 4096]⟩
abbrev SA : Shape := ⟨2, ![4096, 64]⟩
abbrev SB : Shape := ⟨2, ![64, 4096]⟩

variable {ι : Type}

/-- One dense weight first, then one product. -/
def fused (J : SW.Idx → Finset ι) (x : SX.Idx → EReal) (w : SW.Idx → EReal) (a : SA.Idx → EReal)
    (b : SB.Idx → EReal) (v : ι → EReal) : SX.Idx → EReal :=
  fun i => ∑ k : Fin 4096, x (ix3 (i 0) (i 1) k)
    * ((w (ix2 (i 2) k) + ∑ j ∈ J (ix2 (i 2) k), (1 : EReal) * v j) + (1 : EReal) * ∑ r : Fin 64, a (ix2 (i 2) r) * b (ix2 r k))

/-- Three products, then their sum. -/
def separate (J : SW.Idx → Finset ι) (x : SX.Idx → EReal) (w : SW.Idx → EReal) (a : SA.Idx → EReal)
    (b : SB.Idx → EReal) (v : ι → EReal) : SX.Idx → EReal :=
  fun i => (∑ k : Fin 4096, x (ix3 (i 0) (i 1) k) * w (ix2 (i 2) k))
    + (1 : EReal) * ((∑ r : Fin 64, (∑ k : Fin 4096, x (ix3 (i 0) (i 1) k) * b (ix2 r k)) * a (ix2 (i 2) r))
        + ∑ k : Fin 4096, x (ix3 (i 0) (i 1) k) * ((0 : EReal) + ∑ j ∈ J (ix2 (i 2) k), v j))

/-- For real-valued inputs the two arrangements are one function. -/
theorem fused_eq_separate (J : SW.Idx → Finset ι) (x : SX.Idx → EReal) (w : SW.Idx → EReal) (a : SA.Idx → EReal)
    (b : SB.Idx → EReal) (v : ι → EReal)
    (hx : ∀ i, ∃ r : ℝ, x i = r) (hw : ∀ i, ∃ r : ℝ, w i = r) (ha : ∀ i, ∃ r : ℝ, a i = r)
    (hb : ∀ i, ∃ r : ℝ, b i = r) (hv : ∀ j, ∃ r : ℝ, v j = r) :
    fused J x w a b v = separate J x w a b v :=
  funext fun i => fused_eq (K := Fin 4096) (R := Fin 64) (fun k => J (ix2 (i 2) k))
    (fun k => x (ix3 (i 0) (i 1) k)) (fun k => w (ix2 (i 2) k)) (fun r => a (ix2 (i 2) r)) (fun r k => b (ix2 r k)) v
    (fun k => hx _) (fun k => hw _) (fun r => ha _) (fun r k => hb _) hv

end Cert.Spec

end
-- ==== Proof.KernelValue.lean ====
/-
  The idealized kernel's result, element by element, is the one-product arrangement.

  Read backwards from the result: the closing reshape reads the matmul region's [8192, 4096] result at row
  2048·p + s; that result is rows of the activations (the [4, 2048, 4096] input reshaped, the rounding the identity)
  against rows of the combined weight; the combined weight is what the first region leaves: the scattered weight plus
  one times a·b; and the scattered weight is the dense weight with every sparse value, scaled by one, added at its
  (wrapped) index pair.
-/
import proofs.«105094_j83159156785478_2_alg».proof.Proof.KernelBlocks
import proofs.«105094_j83159156785478_2_alg».proof.Proof.Spec
import Idealize.ShloMosaic.Lib.StableHlo.Run
import Idealize.ShloMosaic.Lib.Pipeline.Value

set_option maxRecDepth 16384

noncomputable section

namespace Cert.KernelIdeal.KValue

open Cert.KernelIdeal Cert.KernelIdeal.Gen Idealize.ShloMosaic Idealize.ShloMosaic.TcCoe Idealize.SL.Sem
open Idealize.ShloMosaic.ValueIdx Idealize.ShloMosaic.StableHlo
open Cert.Spec Cert.KernelIdeal.KBlocks

variable (m : (ℓ : Loc nD τ sig) → Buf (Elt Ideal) ℓ) (ρ : Dev nD → PrngReg)

/-! ## The host operations before the first region -/

/-- One row of indices with a negative index wrapped round by the extent 4096. -/
def wrapped (row : IVec S1000000 32) : IVec S1000000 32 :=
  select (cmpi .slt row (broadcastInDim S1000000 ![] bcast_S_S1000000 (constantI S_ 32 0#32)))
    (addi row (broadcastInDim S1000000 ![] bcast_S_S1000000 (constantI S_ 32 4096#32))) row

/-- The million (row, column) index pairs: the two rows of the index input, each wrapped, side by side. -/
def pairs (x5 : IVec S2x1000000 32) : IVec S1000000x2 32 :=
  concatenate S1000000x2 1
    [⟨S1000000x1, broadcastInDim S1000000x1 ![0] bcast_S1000000_S1000000x1_0
        (wrapped (shapeCast _ (extractStridedSlice S1x1000000 ![0, 0] x5 slices_S2x1000000_S1x1000000_0_0) shapeCasts_S1x1000000_S1000000))⟩,
     ⟨S1000000x1, broadcastInDim S1000000x1 ![0] bcast_S1000000_S1000000x1_0
        (wrapped (shapeCast _ (extractStridedSlice S1x1000000 ![1, 0] x5 slices_S2x1000000_S1x1000000_1_0) shapeCasts_S1x1000000_S1000000))⟩]
    concatenates_S1000000x1_S1000000x1_S1000000x2_d1

/-- The sparse values times the constant one. -/
def scaled (x4 : FVec Ideal S1000000 .f32) : FVec Ideal S1000000 .f32 :=
  mulf (broadcastInDim S1000000 ![] bcast_S_S1000000 (constant (F := Ideal) S_ .f32 0x3F800000#32)) x4

theorem scaled_apply (x4 : FVec Ideal S1000000 .f32) (j : S1000000.Idx) : scaled x4 j = (1 : EReal) * x4 j := by
  show Ideal.ofBits .f32 0x3F800000#32 * x4 j = _
  rw [one_f32]

/-- The sparse entries whose index pair lands on weight element `i`. -/
def hits (x5 : IVec S2x1000000 32) (i : S4096x4096.Idx) : Finset S1000000.Idx :=
  landing scatter_S4096x4096_S1000000x2_S1000000_n_01_01_1 (pairs x5) i

/-- The scattered weight at an element: the dense weight there plus the sum of the scaled values landing there. -/
theorem scattered_apply (w : FVec Ideal S4096x4096 .f32) (x5 : IVec S2x1000000 32) (x4 : FVec Ideal S1000000 .f32)
    (i : S4096x4096.Idx) :
    Host.scatterAdd (F := Ideal) scatter_S4096x4096_S1000000x2_S1000000_n_01_01_1 w (pairs x5) (scaled x4) i
      = w i + ∑ j ∈ hits x5 i, (1 : EReal) * x4 j := by
  unfold hits
  simp only [Host.scatterAdd, Ideal.hostScatterAdd_def]
  rw [hostScatterAdd_apply]
  simp only [scaled_apply]

set_option maxHeartbeats 2000000 in
/-- The scattered weight is what the first region finds in its first window's array. -/
theorem entry_scattered (c : Dev nD) :
    V1 m ρ c main_v19 = Host.scatterAdd (F := Ideal) scatter_S4096x4096_S1000000x2_S1000000_n_01_01_1
      (m ((c.tc : Thread nD τ).loc main_arg1)) (pairs (m ((c.tc : Thread nD τ).loc main_arg5)))
      (scaled (m ((c.tc : Thread nD τ).loc main_arg4))) := by
  show StableHlo.after hostOps0 (W0 m ρ c) (Proc.devRef .tc main_v19) = _
  after_results_simp <;> rfl

/-- The low-rank pair reaches the first region as launched. -/
theorem entry_a (c : Dev nD) : V1 m ρ c main_arg2 = m ((c.tc : Thread nD τ).loc main_arg2) := by
  show StableHlo.after hostOps0 (W0 m ρ c) (Proc.devRef .tc main_arg2) = _
  after_results
theorem entry_b (c : Dev nD) : V1 m ρ c main_arg3 = m ((c.tc : Thread nD τ).loc main_arg3) := by
  show StableHlo.after hostOps0 (W0 m ρ c) (Proc.devRef .tc main_arg3) = _
  after_results

/-! ## The host operations between the regions -/

/-- The activations are untouched by the first stretch and the first region. -/
theorem mid_x (c : Dev nD) : W2 m ρ c (Proc.devRef .tc main_arg0) = m ((c.tc : Thread nD τ).loc main_arg0) := by
  rw [W2_of_ne m ρ c main_arg0 (by decide)]
  show StableHlo.after hostOps0 (W0 m ρ c) (Proc.devRef .tc main_arg0) = _
  after_results

/-- The second region finds the activations reshaped to [8192, 4096] in its first window's array. -/
theorem entry_x (c : Dev nD) :
    V3 m ρ c main_v22 = truncf (F := Ideal) .bf16 (shapeCast S8192x4096 (m ((c.tc : Thread nD τ).loc main_arg0))
      shapeCasts_S4x2048x4096_S8192x4096) bitsLt_bf16_f32 := by
  show StableHlo.after hostOps1 (W2 m ρ c) (Proc.devRef .tc main_v22) = _
  after_results
  rw [mid_x]
  rfl

/-- and the first region's result, the combined weight, in its second window's array. -/
theorem entry_w (c : Dev nD) :
    V3 m ρ c main_v20 = combined (V1 m ρ c main_v19) (V1 m ρ c main_arg2) (V1 m ρ c main_arg3) := by
  show StableHlo.after hostOps1 (W2 m ρ c) (Proc.devRef .tc main_v20) = _
  after_results
  exact (W2_arr m ρ c 3).trans (final0 (V1 m ρ) c)

/-! ## The closing reshape -/

theorem result_eq (c : Dev nD) :
    W5 m ρ c (Proc.devRef .tc main_v24)
      = shapeCast S4x2048x4096 (rowsDot (V3 m ρ c main_v22) (V3 m ρ c main_v20)) shapeCasts_S8192x4096_S4x2048x4096 := by
  show StableHlo.after hostOps2 (W4 m ρ c) (Proc.devRef .tc main_v24) = _
  after_results
  rw [show W4 m ρ c (Proc.devRef .tc main_v23) = rowsDot (V3 m ρ c main_v22) (V3 m ρ c main_v20) from
    (W4_arr m ρ c 2).trans (final1 (V3 m ρ) c)]
  rfl

/-! ## The whole value -/

/-- The closing reshape of rows-against-rows of the reshaped activations and the combined weight, element by
    element, is the one-product arrangement. -/
theorem arranged (x : FVec Ideal S4x2048x4096 .f32) (w : FVec Ideal S4096x4096 .f32) (a : FVec Ideal S4096x64 .f32)
    (b : FVec Ideal S64x4096 .f32) (v : FVec Ideal S1000000 .f32) (x5 : IVec S2x1000000 32) :
    shapeCast S4x2048x4096
        (rowsDot (truncf (F := Ideal) .bf16 (shapeCast S8192x4096 x shapeCasts_S4x2048x4096_S8192x4096) bitsLt_bf16_f32)
          (combined (Host.scatterAdd (F := Ideal) scatter_S4096x4096_S1000000x2_S1000000_n_01_01_1 w (pairs x5) (scaled v)) a b))
        shapeCasts_S8192x4096_S4x2048x4096
      = fused (hits x5) x w a b v := by
  funext i
  obtain ⟨p, s, o, rfl⟩ : ∃ (p : Fin 4) (s : Fin 2048) (o : Fin 4096), i = ix3 p s o := ⟨i 0, i 1, i 2, eq_ix3 i⟩
  have hp : p.val < 4 := p.isLt
  have hs : s.val < 2048 := s.isLt
  rw [shapeCast_apply _ shapeCasts_S8192x4096_S4x2048x4096 (ix3 p s o)
    (ix2 (n0 := 8192) (n1 := 4096) ⟨p.val * 2048 + s.val, by omega⟩ o) (by
      rewrite [Shape.rowMajor_val_two, Shape.rowMajor_val_three]
      show (p.val * 2048 + s.val) * 4096 + o.val = (p.val * 2048 + s.val) * 4096 + o.val
      rfl)]
  unfold rowsDot fused
  refine Finset.sum_congr rfl fun k _ => ?_
  have hx : truncf (F := Ideal) .bf16 (shapeCast S8192x4096 x shapeCasts_S4x2048x4096_S8192x4096) bitsLt_bf16_f32
      (ix2 (n0 := 8192) (n1 := 4096) ⟨p.val * 2048 + s.val, by omega⟩ k) = x (ix3 p s k) := by
    show shapeCast S8192x4096 x shapeCasts_S4x2048x4096_S8192x4096
      (ix2 (n0 := 8192) (n1 := 4096) ⟨p.val * 2048 + s.val, by omega⟩ k) = _
    exact shapeCast_apply _ _ _ (ix3 p s k) (by
      rewrite [Shape.rowMajor_val_two, Shape.rowMajor_val_three]
      show (p.val * 2048 + s.val) * 4096 + k.val = (p.val * 2048 + s.val) * 4096 + k.val
      rfl)
  have hw : combined (Host.scatterAdd (F := Ideal) scatter_S4096x4096_S1000000x2_S1000000_n_01_01_1 w (pairs x5) (scaled v)) a b (ix2 o k)
      = (w (ix2 o k) + ∑ j ∈ hits x5 (ix2 o k), (1 : EReal) * v j) + (1 : EReal) * ∑ r : Fin 64, a (ix2 o r) * b (ix2 r k) := by
    unfold combined
    rw [scattered_apply]
  exact congrArg₂ (· * ·) hx hw

/-- THE KERNEL'S RESULT is the one-product arrangement of the launch contents of its arguments. -/
theorem kernel_value (c : Dev nD) :
    W5 m ρ c (Proc.devRef .tc main_v24)
      = fused (hits (m ((c.tc : Thread nD τ).loc main_arg5))) (m ((c.tc : Thread nD τ).loc main_arg0))
          (m ((c.tc : Thread nD τ).loc main_arg1)) (m ((c.tc : Thread nD τ).loc main_arg2))
          (m ((c.tc : Thread nD τ).loc main_arg3)) (m ((c.tc : Thread nD τ).loc main_arg4)) := by
  rw [result_eq, entry_x, entry_w, entry_scattered, entry_a, entry_b]
  exact arranged _ _ _ _ _ _

end Cert.KernelIdeal.KValue

end
-- ==== Proof.RefValue.lean ====
/-
  The reference, element by element, is the three-products arrangement.

  Its result at (p, s, o) is the dense product x·wᵀ there, plus one times the sum of the low-rank term — the product
  of x with bᵀ, then with aᵀ — and the sparse term, x against the scatter of the sparse values into a zero matrix.
  The scatter at an element is zero plus the sum of the values whose index pair lands on that element.
-/
import proofs.«105094_j83159156785478_2_alg».proof.Proof.Gen.ReferenceIdeal.Read
import proofs.«105094_j83159156785478_2_alg».proof.Proof.Spec

noncomputable section

namespace Cert.ReferenceIdeal.RefValue

open Cert.ReferenceIdeal Cert.ReferenceIdeal.Gen Cert.ReferenceIdeal.Read Idealize.ShloMosaic Idealize.ShloMosaic.ValueIdx
open Cert.Spec

/-- The sparse entries whose (wrapped) index pair lands on weight element `i`. -/
def hits (x5 : IVec S2x1000000 32) (i : S4096x4096.Idx) : Finset S1000000.Idx :=
  landing scatter_S4096x4096_S1000000x2_S1000000_n_01_01_1 (val_main_v20 (F := Ideal) x5) i

/-- A scatter-add into a matrix of zeros, at an element: zero plus the sum of the values landing there. -/
theorem scatter_into_zero (z : FVec Ideal S4096x4096 .f32) (hz : ∀ i, z i = (0 : EReal)) (idx : IVec S1000000x2 32)
    (x4 : FVec Ideal S1000000 .f32) (i : S4096x4096.Idx) :
    Host.scatterAdd (F := Ideal) scatter_S4096x4096_S1000000x2_S1000000_n_01_01_1 z idx x4 i
      = (0 : EReal) + ∑ j ∈ landing scatter_S4096x4096_S1000000x2_S1000000_n_01_01_1 idx i, x4 j := by
  simp only [Host.scatterAdd, Ideal.hostScatterAdd_def]
  rw [hostScatterAdd_apply, hz]

/-- The broadcast zero constant is zero at every element. -/
theorem zeros_apply (i : S4096x4096.Idx) : val_main_v3 (F := Ideal) i = (0 : EReal) := by
  rw [val_main_v3_apply, val_main_cst_apply, Ideal.ofBits_def, Ideal.ofBits_zero_f32]

/-- The reference's scatter at an element. -/
theorem scattered_apply (x4 : FVec Ideal S1000000 .f32) (x5 : IVec S2x1000000 32) (i : S4096x4096.Idx) :
    val_main_v21 (F := Ideal) x4 x5 i = (0 : EReal) + ∑ j ∈ hits x5 i, x4 j :=
  scatter_into_zero (val_main_v3 (F := Ideal)) zeros_apply (val_main_v20 (F := Ideal) x5) x4 i

/-- THE REFERENCE'S RESULT is the three-products arrangement of its arguments. -/
theorem reference_eq (x0 : FVec Ideal S4x2048x4096 .f32) (x1 : FVec Ideal S4096x4096 .f32) (x2 : FVec Ideal S4096x64 .f32)
    (x3 : FVec Ideal S64x4096 .f32) (x4 : FVec Ideal S1000000 .f32) (x5 : IVec S2x1000000 32) :
    val_main_v26 (F := Ideal) x0 x1 x2 x3 x4 x5 = separate (hits x5) x0 x1 x2 x3 x4 := by
  funext i
  have e0l : ∀ k, lidx_main_v0 i k = ix3 (i 0) (i 1) k := fun k => funext fun a => Fin.ext (by
    match a with | ⟨0, _⟩ => rfl | ⟨1, _⟩ => rfl | ⟨2, _⟩ => rfl)
  have e0r : ∀ k, ridx_main_v0 i k = ix2 (i 2) k := fun k => funext fun a => Fin.ext (by
    match a with | ⟨0, _⟩ => rfl | ⟨1, _⟩ => rfl)
  have e1l : ∀ r k, lidx_main_v1 (lidx_main_v2 i r) k = ix3 (i 0) (i 1) k := fun r k => funext fun a => Fin.ext (by
    match a with | ⟨0, _⟩ => rfl | ⟨1, _⟩ => rfl | ⟨2, _⟩ => rfl)
  have e1r : ∀ r k, ridx_main_v1 (lidx_main_v2 i r) k = ix2 r k := fun r k => funext fun a => Fin.ext (by
    match a with | ⟨0, _⟩ => rfl | ⟨1, _⟩ => rfl)
  have e2r : ∀ r, ridx_main_v2 i r = ix2 (i 2) r := fun r => funext fun a => Fin.ext (by
    match a with | ⟨0, _⟩ => rfl | ⟨1, _⟩ => rfl)
  have e22l : ∀ k, lidx_main_v22 i k = ix3 (i 0) (i 1) k := fun k => funext fun a => Fin.ext (by
    match a with | ⟨0, _⟩ => rfl | ⟨1, _⟩ => rfl | ⟨2, _⟩ => rfl)
  have e22r : ∀ k, ridx_main_v22 i k = ix2 (i 2) k := fun k => funext fun a => Fin.ext (by
    match a with | ⟨0, _⟩ => rfl | ⟨1, _⟩ => rfl)
  rw [val_main_v26_apply, val_main_v0_apply, val_main_v25_apply, val_main_v24_apply, val_main_cst_3_apply,
    val_main_v23_apply, val_main_v2_apply, val_main_v22_apply]
  unfold separate
  simp only [val_main_v1_apply, e0l, e0r, e1l, e1r, e2r, e22l, e22r, Ideal.addf_def, Ideal.mulf_def,
    Ideal.ofBits_def, one_f32]
  exact congrArg₂ (· + ·) rfl (congrArg₂ (· * ·) rfl (congrArg₂ (· + ·) rfl
    (Finset.sum_congr rfl fun k _ => congrArg₂ (· * ·) rfl (scattered_apply x4 x5 _))))

end Cert.ReferenceIdeal.RefValue

end
-- ==== Proof.FiniteInputs.lean ====
/-
  What the precondition says, element by element: each of the five float inputs holds real numbers.

  The precondition is the conjunction, over the five float inputs, of "every element has absolute value below +∞".
  At the ideal values an element is an extended real, its absolute value is max x (−x), and the word 0x7F800000
  denotes +∞; so the conjunct for an input says that no element of it is +∞ or −∞.
-/
import proofs.«105094_j83159156785478_2_alg».proof.Pre_finite_inputs
import Idealize.ShloMosaic.Lib.ReduceAll
import Idealize.ShloMosaic.Lib.ValueIdx
import Idealize.ShloMosaic.PureOps.Ideal.Laws

noncomputable section

namespace Cert.FiniteInputs

open Cert.Pre_finite_inputs Idealize.ShloMosaic

instance : Subsingleton S_.Idx := ⟨fun a b => funext fun d => d.elim0⟩

/-- The f32 word 0x7F800000 denotes +∞. -/
theorem inf_f32 : Ideal.ofBits .f32 0x7F800000#32 = ⊤ := by simp [Ideal.ofBits, Ideal.ieee]

/-- An extended real whose absolute value is below +∞ is a real number. -/
theorem real_of_abs_lt_inf (x : EReal)
    (h : Ideal.cmp .olt (max x (-x)) (Ideal.ofBits .f32 0x7F800000#32) = 1#1) : ∃ r : ℝ, x = (r : EReal) := by
  rw [inf_f32] at h
  have hlt : max x (-x) < ⊤ := by
    by_contra hc
    simp [Ideal.cmp, hc] at h
  induction x using EReal.rec with
  | bot => simp at hlt
  | top => simp at hlt
  | coe r => exact ⟨r, rfl⟩

variable [Cert.Pre_finite_inputs.Facts]

/-- Under the precondition every element of every float input is a real number. -/
theorem reals_of_pre (a0 : FVec Ideal S4x2048x4096 .f32) (a1 : FVec Ideal S4096x4096 .f32) (a2 : FVec Ideal S4096x64 .f32)
    (a3 : FVec Ideal S64x4096 .f32) (a4 : FVec Ideal S1000000 .f32) (a5 : IVec S2x1000000 32)
    (h : Cert.Pre_finite_inputs.fn (F := Ideal) a0 a1 a2 a3 a4 a5 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  have h0 := congrFun h ValueIdx.ix0
  dsimp only [fn, fn_part1] at h0
  obtain ⟨h0123, e4⟩ := IntOp.andi_eq_one.1 h0
  obtain ⟨h012, e3⟩ := IntOp.andi_eq_one.1 h0123
  obtain ⟨h01, e2⟩ := IntOp.andi_eq_one.1 h012
  obtain ⟨e0, e1⟩ := IntOp.andi_eq_one.1 h01
  exact ⟨fun i => real_of_abs_lt_inf (a0 i) (Host.reduce_andi_all _ _ _ _ ValueIdx.ix0 e0 i),
    fun i => real_of_abs_lt_inf (a1 i) (Host.reduce_andi_all _ _ _ _ ValueIdx.ix0 e1 i),
    fun i => real_of_abs_lt_inf (a2 i) (Host.reduce_andi_all _ _ _ _ ValueIdx.ix0 e2 i),
    fun i => real_of_abs_lt_inf (a3 i) (Host.reduce_andi_all _ _ _ _ ValueIdx.ix0 e3 i),
    fun i => real_of_abs_lt_inf (a4 i) (Host.reduce_andi_all _ _ _ _ ValueIdx.ix0 e4 i)⟩

end Cert.FiniteInputs

end
-- ==== Proof.lean ====
/-
  The kernel computes  out = x · (W + 1·S + 1·(A·B))ᵀ  with ONE dense weight: it scatter-adds the sparse values (times
  one) into the dense weight W, adds one times the rank-64 product A·B in a first region, and multiplies the
  activations by the combined weight in a second. The reference computes  x·Wᵀ + 1·( (x·Bᵀ)·Aᵀ + x·Sᵀ )  with three
  separate products, S the scatter of the sparse values into a zero matrix.

  At the ideal values every sum is exact, so the two differ only in arrangement: the product distributed over the
  three summands of the weight, and the double sum of the low-rank term taken in the other order. Distributivity on
  the extended reals needs every term finite, and the precondition gives exactly that: every element of the five
  float inputs is a real number. The index pairs are computed by the same operations of the same index input on both
  sides, so the two scatters collect the same entries at every weight element.

  The three frames are the generated runs; the idealization rewrote nothing, so `preserves` is `True`.
-/
import proofs.«105094_j83159156785478_2_alg».proof.Defs
import proofs.«105094_j83159156785478_2_alg».proof.Proof.Gen.Kernel
import proofs.«105094_j83159156785478_2_alg».proof.Proof.Gen.Kernel.Skeleton
import proofs.«105094_j83159156785478_2_alg».proof.Proof.Gen.Kernel.Launch
import proofs.«105094_j83159156785478_2_alg».proof.Proof.Gen.Kernel.Points
import proofs.«105094_j83159156785478_2_alg».proof.Proof.Gen.Kernel.Frame
import proofs.«105094_j83159156785478_2_alg».proof.Proof.Gen.KernelIdeal
import proofs.«105094_j83159156785478_2_alg».proof.Proof.Gen.KernelIdeal.Skeleton
import proofs.«105094_j83159156785478_2_alg».proof.Proof.Gen.KernelIdeal.Launch
import proofs.«105094_j83159156785478_2_alg».proof.Proof.Gen.KernelIdeal.Points
import proofs.«105094_j83159156785478_2_alg».proof.Proof.Gen.KernelIdeal.Frame
import proofs.«105094_j83159156785478_2_alg».proof.Proof.Gen.ReferenceIdeal
import proofs.«105094_j83159156785478_2_alg».proof.Proof.Gen.ReferenceIdeal.Run
import proofs.«105094_j83159156785478_2_alg».proof.Proof.Gen.ReferenceIdeal.Read
import proofs.«105094_j83159156785478_2_alg».proof.Proof.Gen.Pre_finite_inputs
import proofs.«105094_j83159156785478_2_alg».proof.Proof.KernelRun
import proofs.«105094_j83159156785478_2_alg».proof.Proof.KernelValue
import proofs.«105094_j83159156785478_2_alg».proof.Proof.RefValue
import proofs.«105094_j83159156785478_2_alg».proof.Proof.FiniteInputs
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The two programs wrap and pair the index input by the same operations, so at every weight element they collect
    the same sparse entries. -/
theorem hits_eq (x5 : IVec Cert.KernelIdeal.S2x1000000 32) :
    Cert.KernelIdeal.KValue.hits x5 = Cert.ReferenceIdeal.RefValue.hits x5 := rfl

/-- From memories that agree on the arguments and satisfy the precondition, the kernel ends at the one-product
    arrangement of its arguments, the reference at the three-products arrangement of the same arguments, and for
    real-valued inputs these are one function. -/
theorem algebraic : Cert.algebraic_KernelIdeal_ReferenceIdeal := by
  intro m ρ m' ρ' hpre hagree
  refine ⟨fun c => Cert.Spec.fused
      (Cert.KernelIdeal.KValue.hits (m ((c.tc : Thread Cert.KernelIdeal.nD Cert.KernelIdeal.τ).loc Cert.KernelIdeal.main_arg5)))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.KValue.kernel_value m ρ c), (h c).2⟩)
      (Cert.KernelIdeal.KRun.run m ρ)
  · refine (θ_run Cert.ReferenceIdeal.defs _ _).mono (fun r h c => ⟨(h c).1.trans ?_, (h c).2⟩)
      (Cert.ReferenceIdeal.Value.run (F := Ideal) m' ρ')
    obtain ⟨g0, g1, g2, g3, g4, g5⟩ := hagree c
    obtain ⟨h0, h1, h2, h3, h4⟩ := Cert.FiniteInputs.reals_of_pre _ _ _ _ _ _ (hpre c)
    rw [Cert.ReferenceIdeal.Read.val_main_v26_eq, Cert.ReferenceIdeal.RefValue.reference_eq, g0, g1, g2, g3, g4, g5,
      ← hits_eq]
    exact (Cert.Spec.fused_eq_separate _ _ _ _ _ _ h0 h1 h2 h3 h4).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
